-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x3136 : Shape := ⟨3, ![16, 512, 3136]⟩
abbrev S512x512 : Shape := ⟨2, ![512, 512]⟩
abbrev S512 : Shape := ⟨1, ![512]⟩
abbrev S_ : Shape := ⟨0, ![]⟩

class Facts : Prop where
  bcast_S_S16x512x3136 : S_.BroadcastsInDim S16x512x3136 (![] : Fin 0 → Fin S16x512x3136.rank)
  reducesTo_S16x512x3136_S_d0_1_2 : S16x512x3136.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S16x512x3136 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S16x512x3136 .f32 := Host.absf main_arg0
  let main_cst : FVec F S_ .f32 := constant S_ .f32 0x7F800000#32
  let main_v1 : FVec F S16x512x3136 .f32 := broadcastInDim S16x512x3136 ![] bcast_S_S16x512x3136 main_cst
  let main_v2 : IVec S16x512x3136 1 := cmpf .olt main_v0 main_v1
  let main_c : IVec S_ 1 := constantI S_ 1 1#1
  let main_v3 : IVec S_ 1 := (fun x v => Host.reduce IntOp.andi x v reducesTo_S16x512x3136_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S16x512x3136 : Shape := ⟨3, ![16, 512, 3136]⟩
abbrev S512x512 : Shape := ⟨2, ![512, 512]⟩
abbrev S512 : Shape := ⟨1, ![512]⟩
abbrev S512x1 : Shape := ⟨2, ![512, 1]⟩
abbrev S1x512x3136 : Shape := ⟨3, ![1, 512, 3136]⟩
abbrev S512x3136 : Shape := ⟨2, ![512, 3136]⟩

abbrev nBuf : Space → Nat
  | .hbm => 14
  | .vmem => 13
  | .smem => 0
  | _ => 0

abbrev bufTy : (tb : Table) → Fin (tcTables nBuf tb) → BufTy
  | .hbm, ⟨0, _⟩ => ⟨S16x512x3136, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .bf16⟩
  | .hbm, ⟨8, _⟩ => ⟨S512x512, .bf16⟩
  | .hbm, ⟨9, _⟩ => ⟨S512x512, .bf16⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S16x512x3136, .f32⟩
  | .local _ .vmem, ⟨0, _⟩ => ⟨S1x512x3136, .f32⟩
  | .local _ .vmem, ⟨1, _⟩ => ⟨S1x512x3136, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S1x512x3136, .f32⟩
  | .local _ .vmem, ⟨9, _⟩ => ⟨S1x512x3136, .f32⟩
  | .local _ .vmem, ⟨10, _⟩ => ⟨S512x3136, .bf16⟩
  | .local _ .vmem, ⟨11, _⟩ => ⟨S512x3136, .bf16⟩
  | .local _ .vmem, ⟨12, _⟩ => ⟨S512x3136, .bf16⟩
  | _, _ => ⟨S16x512x3136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x3136 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S512_S512x1 : S512.ShapeCasts S512x1
  inb_S1x512x3136_S1x512x3136_0_0_0 : ∀ a, (![0, 0, 0] : Fin 3 → Nat) a + S1x512x3136.size a ≤ S1x512x3136.size a
  h_S1x512x3136 : 0 < S1x512x3136.numel
  shapeCasts_S1x512x3136_S512x3136 : S1x512x3136.ShapeCasts S512x3136
  inb_S512x3136_S512x3136_0_0 : ∀ a, (![0, 0] : Fin 2 → Nat) a + S512x3136.size a ≤ S512x3136.size a
  h_S512x3136 : 0 < S512x3136.numel
  shapeCasts_S512x3136_S512x3136 : S512x3136.ShapeCasts S512x3136
  packedbf16_S512x3136_S512x3136_0_0 : (Rect.unit (s := S512x3136) ![0, 0] S512x3136.size inb_S512x3136_S512x3136_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x3136 : S512x1.Broadcasts S512x3136
  reduces_S512x512_S512 : S512x512.Reduces [1] S512
  broadcasts_S512x1_S512x512 : S512x1.Broadcasts S512x512
  shapeCasts_S512x3136_S1x512x3136 : S512x3136.ShapeCasts S1x512x3136
  dot_S512x512_S512x3136_S512x3136_1_0_0_1_n_n_wf : DotDims.WF S512x512 S512x3136 S512x3136 [1] [0] [0] [1] [] []
  dot_S512x3136_S512x3136_S512x512_1_1_0_0_n_n_wf : DotDims.WF S512x3136 S512x3136 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3136.size a ≤ S16x512x3136.size a
  hwx0_0 : ∀ i : grid0.Coords, EltTy.bits .f32 = 32 ∨ (Rect.block (s := S16x512x3136) S1x512x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .f32 = 32 ∨ (Rect.block (s := S512x1) S512x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .f32 = 32 ∨ (Rect.block (s := S512x1) S512x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S512x1.size a
  hwx0_6 : ∀ i : grid0.Coords, EltTy.bits .f32 = 32 ∨ (Rect.block (s := S512x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x3136.size a ≤ S16x512x3136.size a
  hwx0_7 : ∀ i : grid0.Coords, EltTy.bits .f32 = 32 ∨ (Rect.block (s := S16x512x3136) S1x512x3136.size (cc0_transform_7 i) (hinb0_7 i)).WholeWords (EltTy.packing .f32)

variable [Facts₀]

def dot_S512x512_S512x3136_S512x3136_1_0_0_1_n_n : DotDims S512x512 S512x3136 S512x3136 where
  lhsContracting := [1]
  rhsContracting := [0]
  lhsNonContracting := [0]
  rhsNonContracting := [1]
  lhsBatch := []
  rhsBatch := []
  wf := dot_S512x512_S512x3136_S512x3136_1_0_0_1_n_n_wf
def dot_S512x3136_S512x3136_S512x512_1_1_0_0_n_n : DotDims S512x3136 S512x3136 S512x512 where
  lhsContracting := [1]
  rhsContracting := [1]
  lhsNonContracting := [0]
  rhsNonContracting := [0]
  lhsBatch := []
  rhsBatch := []
  wf := dot_S512x3136_S512x3136_S512x512_1_1_0_0_n_n_wf

abbrev win0_0 : Pipeline.Window sig grid0 :=
  Pipeline.Window.ofSpec (Memref.whole main_arg0) S1x512x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5) S512x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x512x3136.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x512x3136 : Shape := ⟨3, ![16, 512, 3136]⟩
abbrev S512x512 : Shape := ⟨2, ![512, 512]⟩
abbrev S512 : Shape := ⟨1, ![512]⟩
abbrev S16x3136x512 : Shape := ⟨3, ![16, 3136, 512]⟩
abbrev S1x1x512 : Shape := ⟨3, ![1, 1, 512]⟩
abbrev S16x512x512 : Shape := ⟨3, ![16, 512, 512]⟩
abbrev S_ : Shape := ⟨0, ![]⟩
abbrev S16x512 : Shape := ⟨2, ![16, 512]⟩
abbrev S16x512x1 : Shape := ⟨3, ![16, 512, 1]⟩

abbrev nBuf : Space → Nat
  | .hbm => 36
  | .vmem => 0
  | .smem => 0
  | _ => 0

abbrev bufTy : (tb : Table) → Fin (tcTables nBuf tb) → BufTy
  | .hbm, ⟨0, _⟩ => ⟨S16x512x3136, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S16x3136x512, .f32⟩
  | .hbm, ⟨8, _⟩ => ⟨S16x3136x512, .f32⟩
  | .hbm, ⟨9, _⟩ => ⟨S1x1x512, .f32⟩
  | .hbm, ⟨10, _⟩ => ⟨S16x3136x512, .f32⟩
  | .hbm, ⟨11, _⟩ => ⟨S16x3136x512, .f32⟩
  | .hbm, ⟨12, _⟩ => ⟨S16x3136x512, .f32⟩
  | .hbm, ⟨13, _⟩ => ⟨S1x1x512, .f32⟩
  | .hbm, ⟨14, _⟩ => ⟨S16x3136x512, .f32⟩
  | .hbm, ⟨15, _⟩ => ⟨S16x3136x512, .f32⟩
  | .hbm, ⟨16, _⟩ => ⟨S16x3136x512, .f32⟩
  | .hbm, ⟨17, _⟩ => ⟨S1x1x512, .f32⟩
  | .hbm, ⟨18, _⟩ => ⟨S16x3136x512, .f32⟩
  | .hbm, ⟨19, _⟩ => ⟨S16x3136x512, .f32⟩
  | .hbm, ⟨20, _⟩ => ⟨S16x512x512, .f32⟩
  | .hbm, ⟨21, _⟩ => ⟨S_, .f32⟩
  | .hbm, ⟨22, _⟩ => ⟨S16x512, .f32⟩
  | .hbm, ⟨23, _⟩ => ⟨S_, .f32⟩
  | .hbm, ⟨24, _⟩ => ⟨S16x512, .f32⟩
  | .hbm, ⟨25, _⟩ => ⟨S16x512, .f32⟩
  | .hbm, ⟨26, _⟩ => ⟨S16x512x1, .f32⟩
  | .hbm, ⟨27, _⟩ => ⟨S16x512x512, .f32⟩
  | .hbm, ⟨28, _⟩ => ⟨S16x512x512, .f32⟩
  | .hbm, ⟨29, _⟩ => ⟨S16x512x512, .f32⟩
  | .hbm, ⟨30, _⟩ => ⟨S_, .f32⟩
  | .hbm, ⟨31, _⟩ => ⟨S16x512, .f32⟩
  | .hbm, ⟨32, _⟩ => ⟨S16x512x1, .f32⟩
  | .hbm, ⟨33, _⟩ => ⟨S16x512x512, .f32⟩
  | .hbm, ⟨34, _⟩ => ⟨S16x512x512, .f32⟩
  | .hbm, ⟨35, _⟩ => ⟨S16x512x3136, .f32⟩
  | _, _ => ⟨S16x512x3136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  transposes_S16x512x3136_S16x3136x512_0_2_1 : S16x512x3136.Transposes [0, 2, 1] S16x3136x512
  bcast_S512_S1x1x512_2 : S512.BroadcastsInDim S1x1x512 (![2] : Fin 1 → Fin S1x1x512.rank)
  bcast_S1x1x512_S16x3136x512_0_1_2 : S1x1x512.BroadcastsInDim S16x3136x512 (![0, 1, 2] : Fin 3 → Fin S16x3136x512.rank)
  reducesTo_S16x512x512_S16x512_d2 : S16x512x512.ReducesTo [2] S16x512
  h_S_ : 0 < S_.numel
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  dot_S16x3136x512_S512x512_S16x3136x512_2_1_01_0_n_n_wf : DotDims.WF S16x3136x512 S512x512 S16x3136x512 [2] [1] [0, 1] [0] [] []
  dot_S16x3136x512_S16x3136x512_S16x512x512_1_1_2_2_0_0_wf : DotDims.WF S16x3136x512 S16x3136x512 S16x512x512 [1] [1] [2] [2] [0] [0]
  dot_S16x512x512_S16x3136x512_S16x512x3136_2_2_1_1_0_0_wf : DotDims.WF S16x512x512 S16x3136x512 S16x512x3136 [2] [2] [1] [1] [0] [0]

variable [Facts₀]

def dot_S16x3136x512_S512x512_S16x3136x512_2_1_01_0_n_n : DotDims S16x3136x512 S512x512 S16x3136x512 where
  lhsContracting := [2]
  rhsContracting := [1]
  lhsNonContracting := [0, 1]
  rhsNonContracting := [0]
  lhsBatch := []
  rhsBatch := []
  wf := dot_S16x3136x512_S512x512_S16x3136x512_2_1_01_0_n_n_wf
def dot_S16x3136x512_S16x3136x512_S16x512x512_1_1_2_2_0_0 : DotDims S16x3136x512 S16x3136x512 S16x512x512 where
  lhsContracting := [1]
  rhsContracting := [1]
  lhsNonContracting := [2]
  rhsNonContracting := [2]
  lhsBatch := [0]
  rhsBatch := [0]
  wf := dot_S16x3136x512_S16x3136x512_S16x512x512_1_1_2_2_0_0_wf
def dot_S16x512x512_S16x3136x512_S16x512x3136_2_2_1_1_0_0 : DotDims S16x512x512 S16x3136x512 S16x512x3136 where
  lhsContracting := [2]
  rhsContracting := [2]
  lhsNonContracting := [1]
  rhsNonContracting := [1]
  lhsBatch := [0]
  rhsBatch := [0]
  wf := dot_S16x512x512_S16x3136x512_S16x512x3136_2_2_1_1_0_0_wf

class Facts : Prop extends Facts₀ where

variable [Facts]
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.LibMatrixReduce.lean ====
/-
  Reductions along one axis of a matrix of extended reals, read at an index given by coordinates.

  For an `[a, b]` array `src`:
    • the maximum along the second axis, taken from the value of a start word, is at `i` the running maximum, from
      that value, of the entries `(i, j)` over all `j`;
    • the maximum along the first axis is at `j` the running maximum of the entries `(i, j)` over all `i`;
    • the sum along the first axis, from the zero word, is at `j` the sum over `i` of the entries `(i, j)`.
  A running maximum over a finite index set does not depend on the order in which the entries are met, so it is
  written as a fold of `max` over the whole index set. (The sum along the second axis is the companion file's.)
-/
import Idealize.ShloMosaic.Lib.ValueIdx
import Idealize.ShloMosaic.PureOps.Ideal.Laws

namespace Cert.MatrixReduce

open Idealize.ShloMosaic Idealize.ShloMosaic.ValueIdx

/-- The maximum along the second axis of an `[a, b]` array, from the start word `acc`, reads at `i` the fold of `max`
    from that word's value over the entries `(i, j)`. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun j => src (ix2 i j)) := by
  refine (Ideal.multiReduction_maximumf_single src acc h hφ hacc (ix1 i)).trans ?_
  show (Finset.univ : Finset (Fin b)).fold max (Ideal.ofBits .f32 acc) (src ∘ h.lift (ix1 i)) = _
  refine congrArg (fun f => (Finset.univ : Finset (Fin b)).fold max (Ideal.ofBits .f32 acc) f) (funext fun j => ?_)
  refine congrArg src (funext fun c => Fin.ext ?_)
  match c with
  | ⟨0, _⟩ => rfl
  | ⟨1, _⟩ => rfl

/-- The maximum along the first axis of an `[a, b]` array, from the start word `acc`, reads at `j` the fold of `max`
    from that word's value over the entries `(i, j)`. -/
theorem colMax_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.maximumf.neutral .f32 hφ) (j : Fin b) :
    multiReduction .maximumf [0] ⟨1, ![b]⟩ src acc h hφ hacc (ix1 j)
      = (Finset.univ : Finset (Fin a)).fold max (Ideal.ofBits .f32 acc) (fun i => src (ix2 i j)) := by
  refine (Ideal.multiReduction_maximumf_single src acc h hφ hacc (ix1 j)).trans ?_
  show (Finset.univ : Finset (Fin a)).fold max (Ideal.ofBits .f32 acc) (src ∘ h.lift (ix1 j)) = _
  refine congrArg (fun f => (Finset.univ : Finset (Fin a)).fold max (Ideal.ofBits .f32 acc) f) (funext fun i => ?_)
  refine congrArg src (funext fun c => Fin.ext ?_)
  match c with
  | ⟨0, _⟩ => rfl
  | ⟨1, _⟩ => rfl

/-- The sum along the first axis of an `[a, b]` array of extended reals, from the zero accumulator, reads at `j` the
    sum over `i` of the entries `(i, j)`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (j : Fin b) :
    multiReduction .add [0] ⟨1, ![b]⟩ src 0x00000000#32 h hφ hacc (ix1 j) = ∑ i : Fin a, src (ix2 i j) := by
  refine (Ideal.multiReduction_add_single src 0x00000000#32 h hφ hacc (ix1 j)).trans ?_
  show ∑ i : Fin a, src (h.lift (ix1 j) i) = ∑ i : Fin a, src (ix2 i j)
  refine Finset.sum_congr rfl fun i _ => congrArg src (funext fun c => Fin.ext ?_)
  match c with
  | ⟨0, _⟩ => rfl
  | ⟨1, _⟩ => rfl

end Cert.MatrixReduce
-- ==== Proof.LibClampedRowSoftmax.lean ====
/-
  The softmax along the rows of a matrix of extended reals, with the row maximum clamped below, read at coordinates.

  A kernel that lowers a library softmax takes, for each row of an `[a, b]` matrix `S`: the row maximum (a reduction
  along the second axis from a start word), then the larger of that and a splat of the same start word, kept as a column
  `[a, 1]` and spread back to `[a, b]`; the difference and its exponential `W = exp (S - top)`; the row sums of `W`
  from zero, kept as a column and spread back; the quotient. At the entry `(r, j)` this is
      exp (S (r, j) - top) / Σ_j' exp (S (r, j') - top),
      top = max (start) (the fold of `max` from the start word's value over row `r`).
  The row may be given as a function `T` of the column coordinate (`hS`): a caller that knows each entry of row `r`
  in closed form gets the softmax of that closed form.
-/
import proofs.«173109_j28071906246667_2_alg».proof.Proof.LibColumnLayout
import proofs.«173109_j28071906246667_2_alg».proof.Proof.LibMatrixReduce

namespace Cert.ClampedRowSoftmax

open Idealize.ShloMosaic Idealize.ShloMosaic.ValueIdx

/-- The value every entry of row `T` is measured against: the start word's value or the row's maximum from it,
    whichever is larger. -/
noncomputable def top {b : ℕ} (acc : BitVec 32) (T : Fin b → EReal) : EReal :=
  max (Ideal.ofBits .f32 acc) ((Finset.univ : Finset (Fin b)).fold max (Ideal.ofBits .f32 acc) T)

/-- The softmax of the row `T` at column `j`, measured against `top`. -/
noncomputable def soft {b : ℕ} (acc : BitVec 32) (T : Fin b → EReal) (j : Fin b) : EReal :=
  Ideal.div (Ideal.exp (T j - top acc T)) (∑ j' : Fin b, Ideal.exp (T j' - top acc T))

/-- The clamped row softmax of `S`, step by step as a kernel computes it, at `(r, j)`. -/
theorem clampedRowSoftmax_apply {a b : ℕ} (S : FVec Ideal ⟨2, ![a, b]⟩ .f32) (acc : BitVec 32)
    (hred : (⟨2, ![a, b]⟩ : Shape).Reduces [1] ⟨1, ![a]⟩) (hφ : FKind.Formats .f32)
    (hmax : acc = FKind.maximumf.neutral .f32 hφ) (hadd : (0x00000000#32 : BitVec 32) = FKind.add.neutral .f32 hφ)
    (hcol : (⟨1, ![a]⟩ : Shape).ShapeCasts ⟨2, ![a, 1]⟩) (hspread : (⟨2, ![a, 1]⟩ : Shape).Broadcasts ⟨2, ![a, b]⟩)
    (r : Fin a) (T : Fin b → EReal) (hS : ∀ j, S (ix2 r j) = T j) (j : Fin b) :
    divf
        (exp (subf S (broadcastTo ⟨2, ![a, b]⟩ (shapeCast ⟨2, ![a, 1]⟩
          (maximumf (broadcast ⟨1, ![a]⟩ (Scalar.ofBits (F := Ideal) .f32 acc))
            (multiReduction .maximumf [1] ⟨1, ![a]⟩ S acc hred hφ hmax)) hcol) hspread)))
        (broadcastTo ⟨2, ![a, b]⟩ (shapeCast ⟨2, ![a, 1]⟩
          (multiReduction .add [1] ⟨1, ![a]⟩
            (exp (subf S (broadcastTo ⟨2, ![a, b]⟩ (shapeCast ⟨2, ![a, 1]⟩
              (maximumf (broadcast ⟨1, ![a]⟩ (Scalar.ofBits (F := Ideal) .f32 acc))
                (multiReduction .maximumf [1] ⟨1, ![a]⟩ S acc hred hφ hmax)) hcol) hspread)))
            0x00000000#32 hred hφ hadd) hcol) hspread)
        (ix2 r j)
      = soft acc T j := by
  -- the spread-back clamped row maximum, at any column of row `r`
  have hm : ∀ j' : Fin b,
      broadcastTo ⟨2, ![a, b]⟩ (shapeCast ⟨2, ![a, 1]⟩
          (maximumf (broadcast ⟨1, ![a]⟩ (Scalar.ofBits (F := Ideal) .f32 acc))
            (multiReduction .maximumf [1] ⟨1, ![a]⟩ S acc hred hφ hmax)) hcol) hspread (ix2 r j')
        = top acc T := fun j' => by
    rw [Cert.ColumnLayout.broadcastTo_a1_ab_apply, Cert.ColumnLayout.shapeCast_a_a1_apply]
    show max (Ideal.ofBits .f32 acc) (multiReduction .maximumf [1] ⟨1, ![a]⟩ S acc hred hφ hmax (ix1 r)) = _
    rw [Cert.MatrixReduce.rowMax_apply]
    exact congrArg (fun f => max (Ideal.ofBits .f32 acc) ((Finset.univ : Finset (Fin b)).fold max (Ideal.ofBits .f32 acc) f))
      (funext hS)
  -- the weight, at any column of row `r`
  have hw : ∀ j' : Fin b,
      exp (subf S (broadcastTo ⟨2, ![a, b]⟩ (shapeCast ⟨2, ![a, 1]⟩
          (maximumf (broadcast ⟨1, ![a]⟩ (Scalar.ofBits (F := Ideal) .f32 acc))
            (multiReduction .maximumf [1] ⟨1, ![a]⟩ S acc hred hφ hmax)) hcol) hspread)) (ix2 r j')
        = Ideal.exp (T j' - top acc T) := fun j' => by
    show Ideal.exp (S (ix2 r j') - _) = _
    rw [hm j', hS j']
  show Ideal.div _ _ = _
  rw [hw j, Cert.ColumnLayout.broadcastTo_a1_ab_apply, Cert.ColumnLayout.shapeCast_a_a1_apply,
    Cert.ColumnLayout.rowSum_apply]
  exact congrArg (Ideal.div _) (Finset.sum_congr rfl fun j' _ => hw j')

end Cert.ClampedRowSoftmax
-- ==== Proof.AttentionSpec.lean ====
/-
  What both programs compute, as one function of the argument arrays.

  For one batch element, write `X` for its `[C, H]` slab of the input (channel `c`, position `h`), and for each of the
  three projections a weight matrix `W` (`[D, C]`) and a bias `b` (`[D]`). Then
      proj W b X d h  = Σ_c W d c · X c h + b d                       (the projection, feature `d` at position `h`)
      score Q K d e   = Σ_h Q d h · K e h                              (feature `d` of the queries against feature `e` of the keys)
      soft (score Q K d) e                                             (row `d` of the scores, softmax over `e`)
      attend … d s    = Σ_e soft (score Q K d) e · V e s               (the weighted values, feature `d` at position `s`)
  with `Q`, `K`, `V` the three projections of the same slab. The softmax is the one a library lowering takes: every
  entry is measured against the larger of -∞ and the row's running maximum from -∞ (`Cert.ClampedRowSoftmax.soft` at the
  word `0xFF800000`), and the denominator is the plain sum of the exponentials.

  Only two laws are ever used to bring a program to this form: a product's factors may be exchanged, and a sum over a
  finite index set may be re-indexed. Both hold on all extended reals, so nothing below asks its arguments to be finite.
-/
import proofs.«173109_j28071906246667_2_alg».proof.Proof.LibClampedRowSoftmax

noncomputable section

namespace Cert.Attention

open Idealize.ShloMosaic Idealize.ShloMosaic.ValueIdx

variable {C H D : ℕ}

/-- The word of -∞, the value a running maximum starts from. -/
abbrev negInfWord : BitVec 32 := 0xFF800000#32

/-- A projection of the slab `X`: feature `d` at position `h`. -/
def proj (W : Fin D → Fin C → EReal) (b : Fin D → EReal) (X : Fin C → Fin H → EReal) (d : Fin D) (h : Fin H) : EReal :=
  (∑ c : Fin C, W d c * X c h) + b d

/-- The score of feature `d` of `Q` against feature `e` of `K`: their product summed over the positions. -/
def score (Q K : Fin D → Fin H → EReal) (d e : Fin D) : EReal := ∑ h : Fin H, Q d h * K e h

/-- The attention output of one slab: feature `d` at position `s`. -/
def attend (Wq : Fin D → Fin C → EReal) (bq : Fin D → EReal) (Wk : Fin D → Fin C → EReal) (bk : Fin D → EReal)
    (Wv : Fin D → Fin C → EReal) (bv : Fin D → EReal) (X : Fin C → Fin H → EReal) (d : Fin D) (s : Fin H) : EReal :=
  ∑ e : Fin D, Cert.ClampedRowSoftmax.soft negInfWord (score (proj Wq bq X) (proj Wk bk X) d) e * proj Wv bv X e s

/-- The whole result array `[N, D, H]` as a function of the seven argument arrays: batch element `n` is the attention
    output of the slab `n` of the input. -/
def result {N : ℕ} (x : (⟨3, ![N, C, H]⟩ : Shape).Idx → EReal) (wq : (⟨2, ![D, C]⟩ : Shape).Idx → EReal)
    (bq : (⟨1, ![D]⟩ : Shape).Idx → EReal) (wk : (⟨2, ![D, C]⟩ : Shape).Idx → EReal) (bk : (⟨1, ![D]⟩ : Shape).Idx → EReal)
    (wv : (⟨2, ![D, C]⟩ : Shape).Idx → EReal) (bv : (⟨1, ![D]⟩ : Shape).Idx → EReal) :
    (⟨3, ![N, D, H]⟩ : Shape).Idx → EReal := fun i =>
  attend (fun d c => wq (ix2 d c)) (fun d => bq (ix1 d)) (fun d c => wk (ix2 d c)) (fun d => bk (ix1 d))
    (fun d c => wv (ix2 d c)) (fun d => bv (ix1 d)) (fun c h => x (ix3 (i 0) c h)) (i 1) (i 2)

end Cert.Attention

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibTransposedMatmul.lean ====
/-
  A matrix product whose right operand is contracted on its second axis, read at coordinates.

  For the contraction `[M, K] × [N, K] → [M, N]` (each operand contracted on its second axis, no batch axis),
  accumulated into the zero matrix, the entry `(r, c)` of the result is `Σ_k lhs (r, k) · rhs (c, k)` on the extended
  reals, at any extents: row `r` of the left operand against row `c` of the right one — the product `A · Bᵀ` with no
  transpose ever formed. The one contraction coordinate `k` runs over `Fin K`.
-/
import Idealize.ShloMosaic.Lib.ValueIdx
import Idealize.ShloMosaic.PureOps.Ideal.Laws

namespace Cert.TransposedMatmul

open Idealize.ShloMosaic Idealize.ShloMosaic.ValueIdx

variable {M K N : ℕ}

/-- The left operand's row coordinate is the result's row coordinate. -/
theorem lhs_row (j : (⟨2, ![M, N]⟩ : Shape).Idx) (q : (DotDims.transposedRhs M K N).contr.Idx) :
    ((DotDims.transposedRhs M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The right operand's row coordinate is the result's column coordinate. -/
theorem rhs_row (j : (⟨2, ![M, N]⟩ : Shape).Idx) (q : (DotDims.transposedRhs M K N).contr.Idx) :
    ((DotDims.transposedRhs M K N).rhsIdx j q (0 : Fin (⟨2, ![N, K]⟩ : Shape).rank)).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- The product into the zero matrix, at `(r, c)`: the sum over `k` of `lhs (r, k) · rhs (c, k)`. -/
theorem transposedRhs_apply {φ₁ φ₂ : FTy} (lhs : FVec Ideal ⟨2, ![M, K]⟩ φ₁) (rhs : FVec Ideal ⟨2, ![N, K]⟩ φ₂)
    (r : Fin M) (c : Fin N) :
    FloatOps.matmul (DotDims.transposedRhs M K N) none lhs rhs (constant ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 r c) ((contrEquiv1 (DotDims.transposedRhs M K N) K rfl rfl).symm k)
      = ix2 c k :=
    funext fun a => Fin.ext (by
      match a with
      | ⟨0, _⟩ => exact rhs_row _ _
      | ⟨1, _⟩ => exact ((DotDims.transposedRhs M K N).rhsIdx_val_of_single rfl _ _).trans hk)
  rw [el, er]

end Cert.TransposedMatmul
-- ==== Proof.KernelBlock.lean ====
/-
  One grid point of the kernel, read index by index.

  At a grid point the kernel holds one slab `x0` of the input (a `[1, C, H]` block), the three weight matrices and
  the three biases as columns `[D, 1]`. It forms the three projections `W · X + b` (the bias column spread along the
  positions), the scores `Q · Kᵀ` as a product that contracts both operands on the position axis, the softmax of
  each row of the scores, and the product of that with the values. Narrowing a value to a shorter float format and a
  shape cast to the same shape change nothing at the extended reals, so the chain of stores and read-backs through the
  kernel's three scratch buffers leaves exactly these terms. Read at `(0, d, s)` of the block the kernel stores, the
  whole is the specification's `attend` of the slab — with no product's factors exchanged on this side.
-/
import proofs.«173109_j28071906246667_2_alg».proof.Proof.Gen.KernelIdeal.Skeleton
import proofs.«173109_j28071906246667_2_alg».proof.Proof.AttentionSpec
import proofs.«173109_j28071906246667_2_alg».proof.Proof.LibPlainMatmul
import proofs.«173109_j28071906246667_2_alg».proof.Proof.LibTransposedMatmul
import Idealize.ShloMosaic.Lib.Pipeline.Value

noncomputable section

namespace Cert.KernelIdeal.Block

open Cert.KernelIdeal Cert.KernelIdeal.Gen Idealize.ShloMosaic Idealize.ShloMosaic.ValueIdx
open Cert.Attention Cert.ClampedRowSoftmax

/-- The slab a `[1, C, H]` block holds: channel `c`, position `h`. -/
abbrev slab (x0 : Vec Ideal S1x512x3136 .f32) : Fin 512 → Fin 3136 → EReal := fun c h => x0 (ix3 (0 : Fin 1) c h)
/-- A weight block as a matrix: feature `d`, channel `c`. -/
abbrev wmat (w : Vec Ideal S512x512 .bf16) : Fin 512 → Fin 512 → EReal := fun d c => w (ix2 d c)
/-- A bias column as a vector over the features. -/
abbrev bcol (b : Vec Ideal S512x1 .f32) : Fin 512 → EReal := fun d => b (ix2 d (0 : Fin 1))

/-- The slab as the kernel keeps it in its first scratch buffer — the block with its unit axis dropped, narrowed —
    reads, at `(c, h)`, the block at `(0, c, h)`. -/
theorem slab_at (x0 : Vec Ideal S1x512x3136 .f32) (c : Fin 512) (h : Fin 3136) :
    k0_pay4 (F := Ideal) x0 (ix2 c h) = slab x0 c h := by
  simp only [k0_pay4, shapeCast_self]
  refine (shapeCast_dropUnit_apply ![512, 3136] x0 _ (ix2 c h)).trans ?_
  exact congrArg x0 (funext fun a => by match a with | ⟨0, _⟩ => rfl | ⟨1, _⟩ => rfl | ⟨2, _⟩ => rfl)

/-- A weight matrix times a `[C, H]` matrix, plus a bias column spread along the positions, at `(d, h)`. -/
theorem affine_at (W : FVec Ideal S512x512 .bf16) (b : FVec Ideal S512x1 .f32) (X : FVec Ideal S512x3136 .bf16)
    (hb : S512x1.Broadcasts S512x3136) (d : Fin 512) (h : Fin 3136) :
    addf (matmul dot_S512x512_S512x3136_S512x3136_1_0_0_1_n_n none W X (constant S512x3136 .f32 0x00000000#32))
        (broadcastTo S512x3136 b hb) (ix2 d h)
      = (∑ c : Fin 512, W (ix2 d c) * X (ix2 c h)) + b (ix2 d (0 : Fin 1)) := by
  show matmul dot_S512x512_S512x3136_S512x3136_1_0_0_1_n_n none W X (constant S512x3136 .f32 0x00000000#32) (ix2 d h)
      + broadcastTo S512x3136 b hb (ix2 d h) = _
  rw [Cert.ColumnLayout.broadcastTo_a1_ab_apply]
  exact congrArg (· + b (ix2 d (0 : Fin 1))) (Cert.PlainMatmul.plain_apply (M := 512) (K := 512) (N := 3136) (φ₁ := .bf16) (φ₂ := .bf16) W X d h)

section Projections
variable (x0 : Vec Ideal S1x512x3136 .f32)

/-- The projection of the slab, from the affine form over the scratch copy of the slab. -/
theorem proj_of_affine (w : Vec Ideal S512x512 .bf16) (b : Vec Ideal S512x1 .f32) (d : Fin 512) (h : Fin 3136) :
    (∑ c : Fin 512, w (ix2 d c) * k0_pay4 (F := Ideal) x0 (ix2 c h)) + b (ix2 d (0 : Fin 1))
      = proj (wmat w) (bcol b) (slab x0) d h := by
  unfold proj
  exact congrArg (· + b (ix2 d (0 : Fin 1))) (Finset.sum_congr rfl fun c _ => by rw [slab_at])

/-- The queries the kernel writes to its second scratch buffer, at `(d, h)`. -/
theorem query_at (w : Vec Ideal S512x512 .bf16) (b : Vec Ideal S512x1 .f32) (d : Fin 512) (h : Fin 3136) :
    k0_pay7 (F := Ideal) w b (k0_pay4 x0) (ix2 d h) = proj (wmat w) (bcol b) (slab x0) d h := by
  simp only [k0_pay7, shapeCast_self]
  exact (affine_at w b (k0_pay4 x0) _ d h).trans (proj_of_affine x0 w b d h)

/-- The keys the kernel writes to its third scratch buffer, at `(e, h)`. -/
theorem key_at (w : Vec Ideal S512x512 .bf16) (b : Vec Ideal S512x1 .f32) (e : Fin 512) (h : Fin 3136) :
    k0_pay1 (F := Ideal) (k0_pay8 w b (k0_pay4 x0)) (ix2 e h) = proj (wmat w) (bcol b) (slab x0) e h := by
  simp only [k0_pay1, k0_pay8, shapeCast_self]
  exact (affine_at w b (k0_pay4 x0) _ e h).trans (proj_of_affine x0 w b e h)

/-- The values the kernel writes over the queries once the scores are taken, at `(e, s)`. -/
theorem value_at (w : Vec Ideal S512x512 .bf16) (b : Vec Ideal S512x1 .f32) (e : Fin 512) (s : Fin 3136) :
    k0_pay2 (F := Ideal) (k0_pay5 w) (k0_pay6 b) (k0_pay4 x0) (ix2 e s) = proj (wmat w) (bcol b) (slab x0) e s := by
  simp only [k0_pay2, k0_pay5, k0_pay6, shapeCast_self]
  exact (affine_at w b (k0_pay4 x0) _ e s).trans (proj_of_affine x0 w b e s)

end Projections

/-- The block the kernel stores, from the three `[D, H]` matrices it reads back: at `(0, d, s)`, the softmax of row
    `d` of `Q · Kᵀ` against column `s` of `V`. -/
theorem stored_at (Q K V : Vec Ideal S512x3136 .bf16) (d : Fin 512) (s : Fin 3136) :
    k0_pay3 (F := Ideal) Q K V (ix3 (0 : Fin 1) d s)
      = ∑ e : Fin 512, soft negInfWord (fun e' => ∑ h : Fin 3136, Q (ix2 d h) * K (ix2 e' h)) e * V (ix2 e s) := by
  simp only [k0_pay3]
  refine (shapeCast_addUnit_apply ![512, 3136] _ _ (ix3 (0 : Fin 1) d s)).trans ?_
  rw [show (fun a : Fin 2 => (ix3 (0 : Fin 1) d s) a.succ) = ix2 d s from
    funext fun a => by match a with | ⟨0, _⟩ => rfl | ⟨1, _⟩ => rfl]
  refine Eq.trans (Cert.PlainMatmul.plain_apply (M := 512) (K := 512) (N := 3136) (φ₁ := .bf16) (φ₂ := .bf16) _ V d s) ?_
  refine Finset.sum_congr rfl fun e _ => congrArg (· * V (ix2 e s)) ?_
  exact clampedRowSoftmax_apply _ negInfWord _ _ _ _ _ _ d _
    (fun j => Cert.TransposedMatmul.transposedRhs_apply (M := 512) (K := 3136) (N := 512) (φ₁ := .bf16) (φ₂ := .bf16) Q K d j) e

/-- ONE GRID POINT: the block the kernel stores is, at `(0, d, s)`, the attention output of its slab. -/
theorem point_at (x0 : Vec Ideal S1x512x3136 .f32) (x1 x2 x3 : Vec Ideal S512x512 .bf16) (x4 x5 x6 : Vec Ideal S512x1 .f32)
    (d : Fin 512) (s : Fin 3136) :
    k0_pay3 (F := Ideal) (k0_pay7 x1 x4 (k0_pay4 x0)) (k0_pay1 (k0_pay8 x2 x5 (k0_pay4 x0)))
        (k0_pay2 (k0_pay5 x3) (k0_pay6 x6) (k0_pay4 x0)) (ix3 (0 : Fin 1) d s)
      = attend (wmat x1) (bcol x4) (wmat x2) (bcol x5) (wmat x3) (bcol x6) (slab x0) d s := by
  rw [stored_at]
  unfold attend
  refine Finset.sum_congr rfl fun e _ => ?_
  rw [value_at]
  refine congrArg (fun T => soft negInfWord T e * proj (wmat x3) (bcol x6) (slab x0) e s) (funext fun e' => ?_)
  unfold score
  exact Finset.sum_congr rfl fun h _ => by rw [query_at, key_at]

end Cert.KernelIdeal.Block

end
-- ==== Proof.KernelPiece.lean ====
/-
  What one run of the kernel's body leaves in the output's staging buffer, as a term over the body's loads.

  The body stores the narrowed slab to its first scratch buffer and reads it back three times; stores the queries to
  the second scratch buffer and the keys to the third and reads both back for the scores; then overwrites the second
  scratch buffer with the values and reads it back for the last product. Each read-back is a load through the very
  rectangle the LAST store to that buffer went through, so it reads that store's value whatever was stored before —
  the twice-written buffer included. What remains is one covering store to the output block, whose value is the last
  product's term over those values: the nested term on the right, at any float instance.
-/
import proofs.«173109_j28071906246667_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Piece

open Cert.KernelIdeal Cert.KernelIdeal.Gen

variable {F : FTy → Type} [FloatOps F]

/-- Zero offsets along three axes, as the constant function. -/
theorem zeros3 : (![0, 0, 0] : Fin 3 → Nat) = fun _ => 0 := funext fun a => by fin_cases a <;> rfl
/-- Zero offsets along two axes, as the constant function. -/
theorem zeros2 : (![0, 0] : Fin 2 → Nat) = fun _ => 0 := funext fun a => by fin_cases a <;> rfl

/-- The output's staging buffer after the body, from the seven input blocks. -/
theorem stored (c : Dev nD) (i : grid0.Coords) (arg1 : Memref sig .tc .vmem S1x512x3136 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512x3136 .f32) (harg8 : arg8.IsWhole) (arg9 : Memref sig .tc .vmem S512x3136 .bf16) (harg9 : arg9.IsWhole) (arg10 : Memref sig .tc .vmem S512x3136 .bf16) (harg10 : arg10.IsWhole) (arg11 : Memref sig .tc .vmem S512x3136 .bf16) (harg11 : arg11.IsWhole)
    (x0 : Vec F S1x512x3136 .f32) (x1 : Vec F S512x512 .bf16) (x2 : Vec F S512x512 .bf16) (x3 : Vec F S512x512 .bf16)
    (x4 : Vec F S512x1 .f32) (x5 : Vec F S512x1 .f32) (x6 : Vec F S512x1 .f32) :
    out0_A_7 c i arg1 harg1 arg2 harg2 arg3 harg3 arg4 harg4 arg5 harg5 arg6 harg6 arg7 harg7 arg8 harg8 arg9 harg9 arg10 harg10 arg11 harg11 x0 x1 x2 x3 x4 x5 x6
      = k0_pay3 (k0_pay7 x1 x4 (k0_pay4 x0)) (k0_pay1 (k0_pay8 x2 x5 (k0_pay4 x0)))
          (k0_pay2 (k0_pay5 x3) (k0_pay6 x6) (k0_pay4 x0)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 x0 x1 x2 x3 x4 x5 x6)]
  unfold kernelRun0_A
  dsimp only
  sl_unfold_words
  rw [View.canon_unit_zero zeros3]
  simp only [View.readCov_cons_toLoadRect, View.readAt_eq_ld, harg1.read_unread, harg2.read_unread, harg3.read_unread,
    harg4.read_unread, harg5.read_unread, harg6.read_unread, harg7.read_unread, View.ld_unit_zero (S := S512x512) zeros2,
    View.ld_unit_zero (S := S512x1) zeros2, View.ld_unit_zero (S := S512x3136) zeros2,
    View.ld_unit_zero (S := S1x512x3136) zeros3]

end Cert.KernelIdeal.Piece

end
-- ==== Proof.KernelArray.lean ====
/-
  From grid points to the whole result array.

  The grid has one point per batch element. At point `t` the input window holds slab `t` of the input array, the
  six other windows hold the whole of a weight matrix or of a bias column, and the output window's block is slab `t`
  of the result array. The weight matrices reach the kernel narrowed to a shorter float format and the biases
  reshaped to columns, both by operations of the surrounding program that run before the kernel: the first changes
  nothing at the extended reals, the second puts entry `d` of a bias at `(d, 0)` of its column. So what point `t`
  writes back is slab `t` of the specification's result, the sixteen blocks cover the array, and after the run the
  array is the specification's function of the seven arguments.
-/
import proofs.«173109_j28071906246667_2_alg».proof.Proof.Gen.KernelIdeal.Value
import proofs.«173109_j28071906246667_2_alg».proof.Proof.KernelBlock
import proofs.«173109_j28071906246667_2_alg».proof.Proof.KernelPiece
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx Cert.Attention

variable (m : (ℓ : Loc nD τ sig) → Buf (Elt Ideal) ℓ) (ρ : Dev nD → PrngReg)

/-- The result array as the specification gives it from the seven argument arrays at launch. -/
abbrev spec (c : Dev nD) : S16x512x3136.Idx → EReal :=
  Cert.Attention.result (N := 16) (C := 512) (H := 3136) (D := 512)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## One block against one slab of the specification, over plain variables -/

/-- If the seven blocks at a point agree, entry by entry, with slab `n` of the input, the three weight arrays and
    the three bias arrays, then the block the body stores is slab `n` of the specification's result. -/
theorem block_eq (x : S16x512x3136.Idx → EReal) (wq wk wv : S512x512.Idx → EReal) (bq bk bv : S512.Idx → EReal) (n : Fin 16)
    (x0 : Vec Ideal S1x512x3136 .f32) (x1 x2 x3 : Vec Ideal S512x512 .bf16) (x4 x5 x6 : Vec Ideal S512x1 .f32)
    (h0 : ∀ (c : Fin 512) (h : Fin 3136), x0 (ix3 (0 : Fin 1) c h) = x (ix3 n c h))
    (h1 : ∀ d c : Fin 512, x1 (ix2 d c) = wq (ix2 d c)) (h2 : ∀ d c : Fin 512, x2 (ix2 d c) = wk (ix2 d c))
    (h3 : ∀ d c : Fin 512, x3 (ix2 d c) = wv (ix2 d c)) (h4 : ∀ d : Fin 512, x4 (ix2 d (0 : Fin 1)) = bq (ix1 d))
    (h5 : ∀ d : Fin 512, x5 (ix2 d (0 : Fin 1)) = bk (ix1 d)) (h6 : ∀ d : Fin 512, x6 (ix2 d (0 : Fin 1)) = bv (ix1 d))
    (y : S1x512x3136.Idx) (i : S16x512x3136.Idx) (hi0 : (i 0).val = n.val) (hi1 : (i 1).val = (y 1).val)
    (hi2 : (i 2).val = (y 2).val) :
    k0_pay3 (F := Ideal) (k0_pay7 x1 x4 (k0_pay4 x0)) (k0_pay1 (k0_pay8 x2 x5 (k0_pay4 x0)))
        (k0_pay2 (k0_pay5 x3) (k0_pay6 x6) (k0_pay4 x0)) y
      = Cert.Attention.result (N := 16) (C := 512) (H := 3136) (D := 512) x wq bq wk bk wv bv i := by
  obtain ⟨p, q, rfl⟩ : ∃ (p : Fin 512) (q : Fin 3136), y = ix3 (0 : Fin 1) p q :=
    ⟨y 1, y 2, funext fun a => by
      match a with
      | ⟨0, _⟩ => exact Fin.ext (by have hy : (y 0).val < 1 := (y 0).isLt; show (y 0).val = 0; omega)
      | ⟨1, _⟩ => rfl
      | ⟨2, _⟩ => rfl⟩
  obtain rfl : i = ix3 n p q := funext fun a => by
    match a with
    | ⟨0, _⟩ => exact Fin.ext hi0
    | ⟨1, _⟩ => exact Fin.ext hi1
    | ⟨2, _⟩ => exact Fin.ext hi2
  rw [Cert.KernelIdeal.Block.point_at]
  show _ = attend _ _ _ _ _ _ _ p q
  rw [show Cert.KernelIdeal.Block.slab x0 = fun c h => x (ix3 n c h) from funext fun c => funext fun h => h0 c h,
    show Cert.KernelIdeal.Block.wmat x1 = fun d c => wq (ix2 d c) from funext fun d => funext fun c => h1 d c,
    show Cert.KernelIdeal.Block.wmat x2 = fun d c => wk (ix2 d c) from funext fun d => funext fun c => h2 d c,
    show Cert.KernelIdeal.Block.wmat x3 = fun d c => wv (ix2 d c) from funext fun d => funext fun c => h3 d c,
    show Cert.KernelIdeal.Block.bcol x4 = fun d => bq (ix1 d) from funext h4,
    show Cert.KernelIdeal.Block.bcol x5 = fun d => bk (ix1 d) from funext h5,
    show Cert.KernelIdeal.Block.bcol x6 = fun d => bv (ix1 d) from funext h6]

/-! ## The arrays the kernel's windows read -/

/-- The narrowed copy of a weight array that the surrounding program hands the kernel is, at the extended reals, the
    weight array; a bias reshaped to a column has entry `d` at `(d, 0)`. -/
theorem V_wq (c : Dev nD) : (V m c main_call0_v0 : S512x512.Idx → EReal) = m ((c : Thread nD τ).loc main_arg1) := by
  dsimp only [Gen.V, Gen.hostOps0]; after_results; rfl
theorem V_wk (c : Dev nD) : (V m c main_call0_v1 : S512x512.Idx → EReal) = m ((c : Thread nD τ).loc main_arg3) := by
  dsimp only [Gen.V, Gen.hostOps0]; after_results; rfl
theorem V_wv (c : Dev nD) : (V m c main_call0_v2 : S512x512.Idx → EReal) = m ((c : Thread nD τ).loc main_arg5) := by
  dsimp only [Gen.V, Gen.hostOps0]; after_results; rfl
theorem V_bq (c : Dev nD) : (V m c main_call0_v3 : S512x1.Idx → EReal)
    = shapeCast S512x1 (m ((c : Thread nD τ).loc main_arg2)) Facts₀.shapeCasts_S512_S512x1 := by
  dsimp only [Gen.V, Gen.hostOps0]; after_results; rfl
theorem V_bk (c : Dev nD) : (V m c main_call0_v4 : S512x1.Idx → EReal)
    = shapeCast S512x1 (m ((c : Thread nD τ).loc main_arg4)) Facts₀.shapeCasts_S512_S512x1 := by
  dsimp only [Gen.V, Gen.hostOps0]; after_results; rfl
theorem V_bv (c : Dev nD) : (V m c main_call0_v5 : S512x1.Idx → EReal)
    = shapeCast S512x1 (m ((c : Thread nD τ).loc main_arg6)) Facts₀.shapeCasts_S512_S512x1 := by
  dsimp only [Gen.V, Gen.hostOps0]; after_results; rfl

/-- The printed index maps over the grid: the input's and the output's block index is the point on the batch axis
    and zero elsewhere; every other window's block index is zero. -/
theorem idx_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The blocks read off the arrays -/

/-- The seven input blocks at point `t`, at their literal shapes. -/
abbrev blkX (c : Dev nD) (t : Fin cfg0.N) : Vec Ideal S1x512x3136 .f32 := iblk m c 0 t
abbrev blkWq (c : Dev nD) (t : Fin cfg0.N) : Vec Ideal S512x512 .bf16 := iblk m c 1 t
abbrev blkWk (c : Dev nD) (t : Fin cfg0.N) : Vec Ideal S512x512 .bf16 := iblk m c 2 t
abbrev blkWv (c : Dev nD) (t : Fin cfg0.N) : Vec Ideal S512x512 .bf16 := iblk m c 3 t
abbrev blkBq (c : Dev nD) (t : Fin cfg0.N) : Vec Ideal S512x1 .f32 := iblk m c 4 t
abbrev blkBk (c : Dev nD) (t : Fin cfg0.N) : Vec Ideal S512x1 .f32 := iblk m c 5 t
abbrev blkBv (c : Dev nD) (t : Fin cfg0.N) : Vec Ideal S512x1 .f32 := iblk m c 6 t

/-- The input window's block at point `t` is slab `t` of the input array. -/
theorem blkX_at (c : Dev nD) (t : Fin cfg0.N) (n : Fin 16) (hn : n.val = t.val) (c' : Fin 512) (h : Fin 3136) :
    blkX m c t (ix3 (0 : Fin 1) c' h) = (m ((c : Thread nD τ).loc main_arg0)) (ix3 n c' h) := by
  obtain ⟨e0, e1, e2, -⟩ := idx_facts t
  show V m c main_arg0 (((cfg0.win 0).blk t).view.emb (ix3 (0 : Fin 1) c' h)) = _
  rw [V_main_arg0]
  refine congrArg _ (funext fun a => Fin.ext ?_)
  match a with
  | ⟨0, _⟩ => show win0_0.index t (0 : Fin 3) * 1 + 1 * 0 = n.val; omega
  | ⟨1, _⟩ => show win0_0.index t (1 : Fin 3) * 512 + 1 * c'.val = c'.val; omega
  | ⟨2, _⟩ => show win0_0.index t (2 : Fin 3) * 3136 + 1 * h.val = h.val; omega

/-- A weight window's block is the whole weight array. -/
theorem blkWq_at (c : Dev nD) (t : Fin cfg0.N) (d c' : Fin 512) : blkWq m c t (ix2 d c') = (m ((c : Thread nD τ).loc main_arg1)) (ix2 d c') := by
  obtain ⟨-, -, -, -, -, -, e0, e1, -⟩ := idx_facts t
  show V m c main_call0_v0 (((cfg0.win 1).blk t).view.emb (ix2 d c')) = _
  rw [V_wq]
  refine congrArg _ (funext fun a => Fin.ext ?_)
  match a with
  | ⟨0, _⟩ => show win0_1.index t (0 : Fin 2) * 512 + 1 * d.val = d.val; omega
  | ⟨1, _⟩ => show win0_1.index t (1 : Fin 2) * 512 + 1 * c'.val = c'.val; omega
theorem blkWk_at (c : Dev nD) (t : Fin cfg0.N) (d c' : Fin 512) : blkWk m c t (ix2 d c') = (m ((c : Thread nD τ).loc main_arg3)) (ix2 d c') := by
  obtain ⟨-, -, -, -, -, -, -, -, e0, e1, -⟩ := idx_facts t
  show V m c main_call0_v1 (((cfg0.win 2).blk t).view.emb (ix2 d c')) = _
  rw [V_wk]
  refine congrArg _ (funext fun a => Fin.ext ?_)
  match a with
  | ⟨0, _⟩ => show win0_2.index t (0 : Fin 2) * 512 + 1 * d.val = d.val; omega
  | ⟨1, _⟩ => show win0_2.index t (1 : Fin 2) * 512 + 1 * c'.val = c'.val; omega
theorem blkWv_at (c : Dev nD) (t : Fin cfg0.N) (d c' : Fin 512) : blkWv m c t (ix2 d c') = (m ((c : Thread nD τ).loc main_arg5)) (ix2 d c') := by
  obtain ⟨-, -, -, -, -, -, -, -, -, -, e0, e1, -⟩ := idx_facts t
  show V m c main_call0_v2 (((cfg0.win 3).blk t).view.emb (ix2 d c')) = _
  rw [V_wv]
  refine congrArg _ (funext fun a => Fin.ext ?_)
  match a with
  | ⟨0, _⟩ => show win0_3.index t (0 : Fin 2) * 512 + 1 * d.val = d.val; omega
  | ⟨1, _⟩ => show win0_3.index t (1 : Fin 2) * 512 + 1 * c'.val = c'.val; omega

/-- A bias window's block is the whole bias column: entry `(d, 0)` is entry `d` of the bias. -/
theorem blkBq_at (c : Dev nD) (t : Fin cfg0.N) (d : Fin 512) : blkBq m c t (ix2 d (0 : Fin 1)) = (m ((c : Thread nD τ).loc main_arg2)) (ix1 d) := by
  obtain ⟨-, -, -, -, -, -, -, -, -, -, -, -, e0, e1, -⟩ := idx_facts t
  show V m c main_call0_v3 (((cfg0.win 4).blk t).view.emb (ix2 d (0 : Fin 1))) = _
  rw [V_bq]
  refine Eq.trans (congrArg _ (funext fun a => Fin.ext ?_)) (Cert.ColumnLayout.shapeCast_a_a1_apply _ _ d (0 : Fin 1))
  match a with
  | ⟨0, _⟩ => show win0_4.index t (0 : Fin 2) * 512 + 1 * d.val = d.val; omega
  | ⟨1, _⟩ => show win0_4.index t (1 : Fin 2) * 1 + 1 * 0 = 0; omega
theorem blkBk_at (c : Dev nD) (t : Fin cfg0.N) (d : Fin 512) : blkBk m c t (ix2 d (0 : Fin 1)) = (m ((c : Thread nD τ).loc main_arg4)) (ix1 d) := by
  obtain ⟨-, -, -, -, -, -, -, -, -, -, -, -, -, -, e0, e1, -⟩ := idx_facts t
  show V m c main_call0_v4 (((cfg0.win 5).blk t).view.emb (ix2 d (0 : Fin 1))) = _
  rw [V_bk]
  refine Eq.trans (congrArg _ (funext fun a => Fin.ext ?_)) (Cert.ColumnLayout.shapeCast_a_a1_apply _ _ d (0 : Fin 1))
  match a with
  | ⟨0, _⟩ => show win0_5.index t (0 : Fin 2) * 512 + 1 * d.val = d.val; omega
  | ⟨1, _⟩ => show win0_5.index t (1 : Fin 2) * 1 + 1 * 0 = 0; omega
theorem blkBv_at (c : Dev nD) (t : Fin cfg0.N) (d : Fin 512) : blkBv m c t (ix2 d (0 : Fin 1)) = (m ((c : Thread nD τ).loc main_arg6)) (ix1 d) := by
  obtain ⟨-, -, -, -, -, -, -, -, -, -, -, -, -, -, -, -, e0, e1⟩ := idx_facts t
  show V m c main_call0_v5 (((cfg0.win 6).blk t).view.emb (ix2 d (0 : Fin 1))) = _
  rw [V_bv]
  refine Eq.trans (congrArg _ (funext fun a => Fin.ext ?_)) (Cert.ColumnLayout.shapeCast_a_a1_apply _ _ d (0 : Fin 1))
  match a with
  | ⟨0, _⟩ => show win0_6.index t (0 : Fin 2) * 512 + 1 * d.val = d.val; omega
  | ⟨1, _⟩ => show win0_6.index t (1 : Fin 2) * 1 + 1 * 0 = 0; omega

/-! ## What a point writes back, the cover, and the array after the run -/

/-- WHAT POINT `t` WRITES BACK is block `t` of the specification's result. -/
theorem flushed_eq (c : Dev nD) (t : Fin cfg0.N) :
    (dats m 0 c).flushed 7 t = ((cfg0.win 7).blk t).view.read (Elt Ideal) (spec m c) := by
  rw [Cert.KernelIdeal.Value.flushed7_A m c t, Cert.KernelIdeal.Piece.stored]
  obtain ⟨-, -, -, e0, e1, e2, -⟩ := idx_facts t
  have hN : cfg0.N = 16 := N_0
  have ht : t.val < 16 := hN ▸ t.isLt
  funext j
  show k0_pay3 (F := Ideal) (k0_pay7 (blkWq m c t) (blkBq m c t) (k0_pay4 (blkX m c t)))
      (k0_pay1 (k0_pay8 (blkWk m c t) (blkBk m c t) (k0_pay4 (blkX m c t))))
      (k0_pay2 (k0_pay5 (blkWv m c t)) (k0_pay6 (blkBv m c t)) (k0_pay4 (blkX m c t))) j
    = spec m c (((cfg0.win 7).blk t).view.emb j)
  have hj0 : (j 0).val < 1 := (j 0).isLt
  refine block_eq (m ((c : Thread nD τ).loc main_arg0)) (m ((c : Thread nD τ).loc main_arg1)) (m ((c : Thread nD τ).loc main_arg3)) (m ((c : Thread nD τ).loc main_arg5))
    (m ((c : Thread nD τ).loc main_arg2)) (m ((c : Thread nD τ).loc main_arg4)) (m ((c : Thread nD τ).loc main_arg6)) ⟨t.val, ht⟩
    (blkX m c t) (blkWq m c t) (blkWk m c t) (blkWv m c t) (blkBq m c t) (blkBk m c t) (blkBv m c t)
    (fun c' h => blkX_at m c t ⟨t.val, ht⟩ rfl c' h) (blkWq_at m c t) (blkWk_at m c t) (blkWv_at m c t)
    (blkBq_at m c t) (blkBk_at m c t) (blkBv_at m c t) j (((cfg0.win 7).blk t).view.emb j) ?_ ?_ ?_
  · show win0_7.index t (0 : Fin 3) * 1 + 1 * (j 0).val = t.val; omega
  · show win0_7.index t (1 : Fin 3) * 512 + 1 * (j 1).val = (j 1).val; omega
  · show win0_7.index t (2 : Fin 3) * 3136 + 1 * (j 2).val = (j 2).val; omega

/-- An index of the result array is in point `t`'s block iff each coordinate is in the block's range on its axis. -/
theorem mem_blk (t : Fin cfg0.N) (i : S16x512x3136.Idx) :
    i ∈ ((cfg0.win 7).blk t).view.set ↔ ∀ a : Fin 3, win0_7.index t a * S1x512x3136.size a ≤ (i a).val
      ∧ (i a).val < win0_7.index t a * S1x512x3136.size a + S1x512x3136.size a := by
  show i ∈ ((View.whole main_v0).slice (win0_7.rect t)).set ↔ _
  rw [View.set_slice_whole, Rect.mem_set_unit]
  exact Iff.rfl

/-- Every index of the result array lies in the block of the point its batch coordinate names. -/
theorem cover (i : S16x512x3136.Idx) :
    ∃ t : Fin cfg0.N, (cfg0.win 7).flush t = true ∧ i ∈ ((cfg0.win 7).blk t).view.set := by
  have hN : cfg0.N = 16 := N_0
  have h0 : (i 0).val < 16 := (i 0).isLt
  have h1 : (i 1).val < 512 := (i 1).isLt
  have h2 : (i 2).val < 3136 := (i 2).isLt
  have ht : (i 0).val < cfg0.N := by omega
  obtain ⟨-, -, -, e0, e1, e2, -⟩ := idx_facts ⟨(i 0).val, ht⟩
  have e0' : win0_7.index ⟨(i 0).val, ht⟩ (0 : Fin 3) = (i 0).val := e0
  refine ⟨⟨(i 0).val, ht⟩, flush0_7 _, ?_⟩
  rw [mem_blk]
  intro a
  match a with
  | ⟨0, _⟩ =>
    show win0_7.index ⟨(i 0).val, ht⟩ (0 : Fin 3) * 1 ≤ (i 0).val ∧ (i 0).val < win0_7.index ⟨(i 0).val, ht⟩ (0 : Fin 3) * 1 + 1
    omega
  | ⟨1, _⟩ =>
    show win0_7.index ⟨(i 0).val, ht⟩ (1 : Fin 3) * 512 ≤ (i 1).val ∧ (i 1).val < win0_7.index ⟨(i 0).val, ht⟩ (1 : Fin 3) * 512 + 512
    omega
  | ⟨2, _⟩ =>
    show win0_7.index ⟨(i 0).val, ht⟩ (2 : Fin 3) * 3136 ≤ (i 2).val ∧ (i 2).val < win0_7.index ⟨(i 0).val, ht⟩ (2 : Fin 3) * 3136 + 3136
    omega

/-- THE RESULT ARRAY after the run is the specification's function of the seven arguments at launch. -/
theorem final (c : Dev nD) : (dats m 0 c).arrAt 7 cfg0.N = spec m c :=
  (dats m 0 c).arrAt_eq_of_cover 7 (spec m c) (fun t _ => flushed_eq m c t) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v0) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Whole

end
-- ==== Proof.ReferenceValue.lean ====
/-
  The reference, read index by index, is the attention function of the specification.

  The reference first transposes each slab to positions × channels and contracts it against a weight matrix on the
  channel axis, so its projection reads `Σ_c X c h · W d c + b d`: the factors of each product stand in the other
  order than in the specification, and exchanging them is the only algebra on this side. Its scores contract two
  projections over the position axis, its softmax is the same chain of a maximum from -∞, a second maximum against -∞,
  a difference, an exponential, a sum from zero and a quotient, and its last contraction runs over the key features.
  Every step is read at an index through the run's stage-by-stage lemmas; the one stage those do not read, the maximum
  along the last axis, is the fold of `max` over that axis's coordinates.
-/
import proofs.«173109_j28071906246667_2_alg».proof.Proof.Gen.ReferenceIdeal.Read
import proofs.«173109_j28071906246667_2_alg».proof.Proof.AttentionSpec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Attention Cert.ClampedRowSoftmax

/-- Slab `n` of the input: channel `c`, position `h`. -/
abbrev slab (x : (⟨S16x512x3136, .f32⟩ : BufTy).Contents (Elt Ideal)) (n : Fin 16) : Fin 512 → Fin 3136 → EReal := fun c h => x (ix3 n c h)
/-- A weight array as a matrix: feature `d`, channel `c`. -/
abbrev wmat (w : (⟨S512x512, .f32⟩ : BufTy).Contents (Elt Ideal)) : Fin 512 → Fin 512 → EReal := fun d c => w (ix2 d c)
/-- A bias array as a vector over the features. -/
abbrev bvec (b : (⟨S512, .f32⟩ : BufTy).Contents (Elt Ideal)) : Fin 512 → EReal := fun d => b (ix1 d)

/-- The reference's queries, at batch `n`, position `h`, feature `d`: the projection of slab `n` (the products' factors exchanged). -/
theorem query_at (x : (⟨S16x512x3136, .f32⟩ : BufTy).Contents (Elt Ideal)) (w : (⟨S512x512, .f32⟩ : BufTy).Contents (Elt Ideal)) (b : (⟨S512, .f32⟩ : BufTy).Contents (Elt Ideal)) (n : Fin 16) (h : Fin 3136) (d : Fin 512) :
    val_main_v4 (F := Ideal) x w b (ix3 n h d) = proj (wmat w) (bvec b) (slab x n) d h := by
  have e1 : val_main_v1 (F := Ideal) x w (ix3 n h d) = ∑ c : Fin 512, w (ix2 d c) * x (ix3 n c h) := by
    rw [val_main_v1_apply]
    refine Finset.sum_congr rfl fun k _ => ?_
    rw [val_main_v0_apply, mul_comm,
      show ridx_main_v1 (ix3 n h d) k = ix2 d k from funext fun a => by match a with | ⟨0, _⟩ => rfl | ⟨1, _⟩ => rfl,
      show idx_main_v0 (lidx_main_v1 (ix3 n h d) k) = ix3 n k h from funext fun a => by match a with | ⟨0, _⟩ => rfl | ⟨1, _⟩ => rfl | ⟨2, _⟩ => rfl]
  have e3 : val_main_v3 (F := Ideal) b (ix3 n h d) = b (ix1 d) := by
    rw [val_main_v3_apply, val_main_v2_apply]
    exact congrArg b (funext fun a => by match a with | ⟨0, _⟩ => rfl)
  show val_main_v1 (F := Ideal) x w (ix3 n h d) + val_main_v3 (F := Ideal) b (ix3 n h d) = _
  rw [e1, e3]
  rfl

/-- The reference's keys, likewise. -/
theorem key_at (x : (⟨S16x512x3136, .f32⟩ : BufTy).Contents (Elt Ideal)) (w : (⟨S512x512, .f32⟩ : BufTy).Contents (Elt Ideal)) (b : (⟨S512, .f32⟩ : BufTy).Contents (Elt Ideal)) (n : Fin 16) (h : Fin 3136) (d : Fin 512) :
    val_main_v8 (F := Ideal) x w b (ix3 n h d) = proj (wmat w) (bvec b) (slab x n) d h := by
  have e1 : val_main_v5 (F := Ideal) x w (ix3 n h d) = ∑ c : Fin 512, w (ix2 d c) * x (ix3 n c h) := by
    rw [val_main_v5_apply]
    refine Finset.sum_congr rfl fun k _ => ?_
    rw [val_main_v0_apply, mul_comm,
      show ridx_main_v5 (ix3 n h d) k = ix2 d k from funext fun a => by match a with | ⟨0, _⟩ => rfl | ⟨1, _⟩ => rfl,
      show idx_main_v0 (lidx_main_v5 (ix3 n h d) k) = ix3 n k h from funext fun a => by match a with | ⟨0, _⟩ => rfl | ⟨1, _⟩ => rfl | ⟨2, _⟩ => rfl]
  have e3 : val_main_v7 (F := Ideal) b (ix3 n h d) = b (ix1 d) := by
    rw [val_main_v7_apply, val_main_v6_apply]
    exact congrArg b (funext fun a => by match a with | ⟨0, _⟩ => rfl)
  show val_main_v5 (F := Ideal) x w (ix3 n h d) + val_main_v7 (F := Ideal) b (ix3 n h d) = _
  rw [e1, e3]
  rfl

/-- The reference's values, likewise. -/
theorem value_at (x : (⟨S16x512x3136, .f32⟩ : BufTy).Contents (Elt Ideal)) (w : (⟨S512x512, .f32⟩ : BufTy).Contents (Elt Ideal)) (b : (⟨S512, .f32⟩ : BufTy).Contents (Elt Ideal)) (n : Fin 16) (h : Fin 3136) (d : Fin 512) :
    val_main_v12 (F := Ideal) x w b (ix3 n h d) = proj (wmat w) (bvec b) (slab x n) d h := by
  have e1 : val_main_v9 (F := Ideal) x w (ix3 n h d) = ∑ c : Fin 512, w (ix2 d c) * x (ix3 n c h) := by
    rw [val_main_v9_apply]
    refine Finset.sum_congr rfl fun k _ => ?_
    rw [val_main_v0_apply, mul_comm,
      show ridx_main_v9 (ix3 n h d) k = ix2 d k from funext fun a => by match a with | ⟨0, _⟩ => rfl | ⟨1, _⟩ => rfl,
      show idx_main_v0 (lidx_main_v9 (ix3 n h d) k) = ix3 n k h from funext fun a => by match a with | ⟨0, _⟩ => rfl | ⟨1, _⟩ => rfl | ⟨2, _⟩ => rfl]
  have e3 : val_main_v11 (F := Ideal) b (ix3 n h d) = b (ix1 d) := by
    rw [val_main_v11_apply, val_main_v10_apply]
    exact congrArg b (funext fun a => by match a with | ⟨0, _⟩ => rfl)
  show val_main_v9 (F := Ideal) x w (ix3 n h d) + val_main_v11 (F := Ideal) b (ix3 n h d) = _
  rw [e1, e3]
  rfl

section Scores
variable (x : (⟨S16x512x3136, .f32⟩ : BufTy).Contents (Elt Ideal)) (wq : (⟨S512x512, .f32⟩ : BufTy).Contents (Elt Ideal)) (bq : (⟨S512, .f32⟩ : BufTy).Contents (Elt Ideal)) (wk : (⟨S512x512, .f32⟩ : BufTy).Contents (Elt Ideal)) (bk : (⟨S512, .f32⟩ : BufTy).Contents (Elt Ideal))

/-- The scores of slab `n`, in the specification's form. -/
abbrev scores (n : Fin 16) : Fin 512 → Fin 512 → EReal :=
  score (proj (wmat wq) (bvec bq) (slab x n)) (proj (wmat wk) (bvec bk) (slab x n))

/-- The reference's scores at `(n, d, e)`: queries' feature `d` against keys' feature `e`, summed over the positions. -/
theorem score_at (n : Fin 16) (d e : Fin 512) :
    val_main_v13 (F := Ideal) x wq bq wk bk (ix3 n d e) = scores x wq bq wk bk n d e := by
  rw [val_main_v13_apply]
  refine Finset.sum_congr rfl fun k _ => ?_
  rw [show lidx_main_v13 (ix3 n d e) k = ix3 n k d from funext fun a => by match a with | ⟨0, _⟩ => rfl | ⟨1, _⟩ => rfl | ⟨2, _⟩ => rfl,
    show ridx_main_v13 (ix3 n d e) k = ix3 n k e from funext fun a => by match a with | ⟨0, _⟩ => rfl | ⟨1, _⟩ => rfl | ⟨2, _⟩ => rfl, query_at, key_at]

/-- The maximum of row `(n, d)` of the scores, from -∞: the fold of `max` over the row. -/
theorem rowmax_at (n : Fin 16) (d : Fin 512) :
    val_main_v14 (F := Ideal) x wq bq wk bk (ix2 n d)
      = (Finset.univ : Finset (Fin 512)).fold max (Ideal.ofBits .f32 negInfWord) (scores x wq bq wk bk n d) := by
  unfold val_main_v14
  rw [Host.reduce_eq_fold_single FloatOps.maximumf _ _ reducesTo_S16x512x512_S16x512_d2 (by decide) h_S_,
    val_main_cst_apply, Ideal.ofBits_def]
  refine congrArg (fun f => (Finset.univ : Finset (Fin 512)).fold max (Ideal.ofBits .f32 negInfWord) f)
    (funext fun (e : Fin 512) => ?_)
  refine Eq.trans (congrArg (val_main_v13 (F := Ideal) x wq bq wk bk) ?_) (score_at x wq bq wk bk n d e)
  exact funext fun a => Fin.ext (by match a with | ⟨0, _⟩ => rfl | ⟨1, _⟩ => rfl | ⟨2, _⟩ => rfl)

/-- … and the larger of -∞ and that: what every entry of the row is measured against. -/
theorem top_at (n : Fin 16) (d : Fin 512) :
    val_main_v16 (F := Ideal) x wq bq wk bk (ix2 n d) = top negInfWord (scores x wq bq wk bk n d) := by
  rw [val_main_v16_apply, val_main_v15_apply, val_main_cst_0_apply, rowmax_at, Ideal.maximumf_def, Ideal.ofBits_def]
  rfl

/-- The exponential weight at `(n, d, e)`. -/
theorem weight_at (n : Fin 16) (d e : Fin 512) :
    val_main_v20 (F := Ideal) x wq bq wk bk (ix3 n d e)
      = Ideal.exp (scores x wq bq wk bk n d e - top negInfWord (scores x wq bq wk bk n d)) := by
  rw [val_main_v20_apply, Ideal.hostUnary_exp_def, val_main_v19_apply, Ideal.subf_def, score_at, val_main_v18_apply,
    val_main_v17_apply, show idx_main_v17 (idx_main_v18 (ix3 n d e)) = ix2 n d from funext fun a => by match a with | ⟨0, _⟩ => rfl | ⟨1, _⟩ => rfl, top_at]

/-- The softmax at `(n, d, e)`: the weight over the row's sum of weights (the sum starts from zero). -/
theorem soft_at (n : Fin 16) (d e : Fin 512) :
    val_main_v24 (F := Ideal) x wq bq wk bk (ix3 n d e) = soft negInfWord (scores x wq bq wk bk n d) e := by
  rw [val_main_v24_apply, Ideal.hostDivf_def, weight_at, val_main_v23_apply, val_main_v22_apply,
    show idx_main_v22 (idx_main_v23 (ix3 n d e)) = ix2 n d from funext fun a => by match a with | ⟨0, _⟩ => rfl | ⟨1, _⟩ => rfl, val_main_v21_apply,
    val_main_cst_1_apply, Ideal.ofBits_def, Ideal.ofBits_zero_f32, zero_add]
  unfold soft
  refine congrArg (Ideal.div _) (Finset.sum_congr rfl fun k _ => ?_)
  rw [show idx_main_v21 (ix2 n d) k = ix3 n d k from funext fun a => by match a with | ⟨0, _⟩ => rfl | ⟨1, _⟩ => rfl | ⟨2, _⟩ => rfl, weight_at]

end Scores

/-- THE REFERENCE'S RESULT is the specification's function of the seven argument arrays. -/
theorem result_eq (x : (⟨S16x512x3136, .f32⟩ : BufTy).Contents (Elt Ideal)) (wq : (⟨S512x512, .f32⟩ : BufTy).Contents (Elt Ideal)) (bq : (⟨S512, .f32⟩ : BufTy).Contents (Elt Ideal)) (wk : (⟨S512x512, .f32⟩ : BufTy).Contents (Elt Ideal)) (bk : (⟨S512, .f32⟩ : BufTy).Contents (Elt Ideal)) (wv : (⟨S512x512, .f32⟩ : BufTy).Contents (Elt Ideal)) (bv : (⟨S512, .f32⟩ : BufTy).Contents (Elt Ideal)) :
    val_main_v25 (F := Ideal) x wq bq wk bk wv bv = Cert.Attention.result x wq bq wk bk wv bv := by
  funext i
  obtain ⟨n, d, s, rfl⟩ : ∃ (n : Fin 16) (d : Fin 512) (s : Fin 3136), i = ix3 n d s := ⟨i 0, i 1, i 2, eq_ix3 i⟩
  rw [val_main_v25_apply]
  show _ = attend (wmat wq) (bvec bq) (wmat wk) (bvec bk) (wmat wv) (bvec bv) (slab x n) d s
  unfold attend
  refine Finset.sum_congr rfl fun k _ => ?_
  rw [show lidx_main_v25 (ix3 n d s) k = ix3 n d k from funext fun a => by match a with | ⟨0, _⟩ => rfl | ⟨1, _⟩ => rfl | ⟨2, _⟩ => rfl,
    show ridx_main_v25 (ix3 n d s) k = ix3 n s k from funext fun a => by match a with | ⟨0, _⟩ => rfl | ⟨1, _⟩ => rfl | ⟨2, _⟩ => rfl, soft_at, value_at]

end Cert.ReferenceIdeal.RefValue

end
-- ==== Proof.lean ====
/-
  The certificate of an attention kernel against its reference: equal results on the extended reals.

  The kernel keeps each `[C, H]` slab of the input as it is and computes the projections as `W · X + b`, the scores as
  `Q · Kᵀ` contracted over the positions, a softmax of each row of the scores, and the product with the values — one grid
  point per batch element. The reference transposes each slab first and contracts against the weights from the other
  side. On the extended reals both are the function `Cert.Attention.result` of the seven argument arrays
  (AttentionSpec.lean): on the kernel's side nothing is re-arranged (KernelBlock.lean reads one grid point,
  KernelPiece.lean what its stores leave, KernelArray.lean the sixteen blocks as the whole array); on the reference's
  side the factors of each product in a projection are exchanged (ReferenceValue.lean). Neither step needs an argument
  to be finite, so the precondition is never opened.

  The three frame conjuncts are the generated frames (the reference's is its generated run with the result dropped);
  the idealization rewrote no operation, so `preserves` has nothing to state.
-/
import proofs.«173109_j28071906246667_2_alg».proof.Defs
import proofs.«173109_j28071906246667_2_alg».proof.Proof.Gen.Kernel
import proofs.«173109_j28071906246667_2_alg».proof.Proof.Gen.Kernel.Skeleton
import proofs.«173109_j28071906246667_2_alg».proof.Proof.Gen.Kernel.Launch
import proofs.«173109_j28071906246667_2_alg».proof.Proof.Gen.Kernel.Points
import proofs.«173109_j28071906246667_2_alg».proof.Proof.Gen.Kernel.Frame
import proofs.«173109_j28071906246667_2_alg».proof.Proof.Gen.KernelIdeal
import proofs.«173109_j28071906246667_2_alg».proof.Proof.Gen.KernelIdeal.Skeleton
import proofs.«173109_j28071906246667_2_alg».proof.Proof.Gen.KernelIdeal.Launch
import proofs.«173109_j28071906246667_2_alg».proof.Proof.Gen.KernelIdeal.Points
import proofs.«173109_j28071906246667_2_alg».proof.Proof.Gen.KernelIdeal.Frame
import proofs.«173109_j28071906246667_2_alg».proof.Proof.Gen.ReferenceIdeal
import proofs.«173109_j28071906246667_2_alg».proof.Proof.Gen.Pre_finite_inputs
import proofs.«173109_j28071906246667_2_alg».proof.Proof.Gen.KernelIdeal.Value
import proofs.«173109_j28071906246667_2_alg».proof.Proof.Gen.ReferenceIdeal.Run
import proofs.«173109_j28071906246667_2_alg».proof.Proof.Gen.ReferenceIdeal.Read
import proofs.«173109_j28071906246667_2_alg».proof.Proof.KernelArray
import proofs.«173109_j28071906246667_2_alg».proof.Proof.ReferenceValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the seven arguments, the kernel's result array ends at the specification's function of
    its arguments and the reference's at the same function of its own: equal, entry by entry. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v25 m' c = Cert.KernelIdeal.Whole.spec m c
  rw [Cert.ReferenceIdeal.Read.val_main_v25_eq, Cert.ReferenceIdeal.RefValue.result_eq, (hagree c).1, (hagree c).2.1,
    (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
